-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_arg0)) (v1 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_arg0) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_arg0) = v0 c
          ∧ r.2.mem ((c.tc : Thread Cert.ReferenceIdeal.nD Cert.ReferenceIdeal.τ).loc Cert.ReferenceIdeal.main_v2) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x32000000 : Shape := ⟨2, ![2, 32000000]⟩
abbrev S32000000 : Shape := ⟨1, ![32000000]⟩
abbrev S_ : Shape := ⟨0, ![]⟩

class Facts : Prop where
  bcast_S_S32000000 : S_.BroadcastsInDim S32000000 (![] : Fin 0 → Fin S32000000.rank)
  reducesTo_S32000000_S_d0 : S32000000.ReducesTo [0] S_
  h_S_ : 0 < S_.numel

variable [Facts]

def fn {F : FTy → Type} [FloatOps F] (main_arg0 : IVec S2x32000000 32) (main_arg1 : FVec F S32000000 .f32) (main_arg2 : IVec S32000000 1) : IVec S_ 1 :=
  let main_v0 : FVec F S32000000 .f32 := Host.absf main_arg1
  let main_cst : FVec F S_ .f32 := constant S_ .f32 0x7F800000#32
  let main_v1 : FVec F S32000000 .f32 := broadcastInDim S32000000 ![] bcast_S_S32000000 main_cst
  let main_v2 : IVec S32000000 1 := cmpf .olt main_v0 main_v1
  let main_c : IVec S_ 1 := constantI S_ 1 1#1
  let main_v3 : IVec S_ 1 := (fun x v => Host.reduce IntOp.andi x v reducesTo_S32000000_S_d0 h_S_) main_v2 main_c
  main_v3
-- ==== Kernel.lean ====
abbrev S2x32000000 : Shape := ⟨2, ![2, 32000000]⟩
abbrev S32000000 : Shape := ⟨1, ![32000000]⟩
abbrev S250000x128 : Shape := ⟨2, ![250000, 128]⟩
abbrev S10000x128 : Shape := ⟨2, ![10000, 128]⟩

abbrev nBuf : Space → Nat
  | .hbm => 8
  | .vmem => 6
  | .smem => 0
  | _ => 0

abbrev bufTy : (tb : Table) → Fin (tcTables nBuf tb) → BufTy
  | .hbm, ⟨0, _⟩ => ⟨S2x32000000, .i32⟩
  | .hbm, ⟨1, _⟩ => ⟨S32000000, .f32⟩
  | .hbm, ⟨2, _⟩ => ⟨S32000000, .i1⟩
  | .hbm, ⟨3, _⟩ => ⟨S250000x128, .f32⟩
  | .hbm, ⟨4, _⟩ => ⟨S250000x128, .i1⟩
  | .hbm, ⟨5, _⟩ => ⟨S250000x128, .i32⟩
  | .hbm, ⟨6, _⟩ => ⟨S250000x128, .f32⟩
  | .hbm, ⟨7, _⟩ => ⟨S32000000, .f32⟩
  | .local _ .vmem, ⟨0, _⟩ => ⟨S10000x128, .f32⟩
  | .local _ .vmem, ⟨1, _⟩ => ⟨S10000x128, .f32⟩
  | .local _ .vmem, ⟨2, _⟩ => ⟨S10000x128, .i32⟩
  | .local _ .vmem, ⟨3, _⟩ => ⟨S10000x128, .i32⟩
  | .local _ .vmem, ⟨4, _⟩ => ⟨S10000x128, .f32⟩
  | .local _ .vmem, ⟨5, _⟩ => ⟨S10000x128, .f32⟩
  | _, _ => ⟨S2x32000000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S32000000_S250000x128 : S32000000.ShapeCasts S250000x128
  natLt_1_32 : 1 < 32
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  shapeCasts_S250000x128_S32000000 : S250000x128.ShapeCasts S32000000
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S250000x128.size a
  hwx0_0 : ∀ i : grid0.Coords, EltTy.bits .f32 = 32 ∨ (Rect.block (s := S250000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S250000x128.size a
  hwx0_1 : ∀ i : grid0.Coords, EltTy.bits .i32 = 32 ∨ (Rect.block (s := S250000x128) S10000x128.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S250000x128.size a
  hwx0_2 : ∀ i : grid0.Coords, EltTy.bits .f32 = 32 ∨ (Rect.block (s := S250000x128) S10000x128.size (cc0_transform_2 i) (hinb0_2 i)).WholeWords (EltTy.packing .f32)

variable [Facts₀]

abbrev win0_0 : Pipeline.Window sig grid0 :=
  Pipeline.Window.ofSpec (Memref.whole main_v0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S10000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S2x32000000 : Shape := ⟨2, ![2, 32000000]⟩
abbrev S32000000 : Shape := ⟨1, ![32000000]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S2x32000000, .i32⟩
  | .hbm, ⟨1, _⟩ => ⟨S32000000, .f32⟩
  | .hbm, ⟨2, _⟩ => ⟨S32000000, .i1⟩
  | .hbm, ⟨3, _⟩ => ⟨S_, .f32⟩
  | .hbm, ⟨4, _⟩ => ⟨S32000000, .f32⟩
  | .hbm, ⟨5, _⟩ => ⟨S32000000, .f32⟩
  | .hbm, ⟨6, _⟩ => ⟨S_, .f32⟩
  | .hbm, ⟨7, _⟩ => ⟨S32000000, .f32⟩
  | .hbm, ⟨8, _⟩ => ⟨S32000000, .f32⟩
  | _, _ => ⟨S2x32000000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_call0_v0 : Ref sig .tc := ⟨.hbm, 7, rfl⟩
abbrev main_v2 : Ref sig .tc := ⟨.hbm, 8, rfl⟩

abbrev nD : Nat := 1
abbrev τ : Topo := Topo.v7x

variable {F : FTy → Type} [FloatOps F]

class Facts₀ : Prop where
  bcast_S_S32000000 : S_.BroadcastsInDim S32000000 (![] : Fin 0 → Fin S32000000.rank)

variable [Facts₀]

class Facts : Prop extends Facts₀ where

variable [Facts]
-- ==== Proof.Entry.lean ====
/-
  Sparse dropout with keep probability 1/2, one entry at a time: an entry is kept and doubled where its mask bit is
  set, and is zero elsewhere. The kernel sees the mask as 32-bit words (the bit widened with zeros) and tests the
  word against zero; that test gives the bit back. The kernel also works on the flat arrays laid out as a matrix and
  lays its result out flat again: a pointwise function commutes with a change of layout, and the two changes of
  layout undo each other.
-/
import Idealize.ShloMosaic.Lib.Pipeline.Value
import Idealize.ShloMosaic.Lib.ValueIdx

noncomputable section

namespace Cert.Dropout

open Idealize.ShloMosaic

variable {F : FTy → Type} [FloatOps F]

/-- The entry from the mask bit: twice the value where the bit is one, zero where it is not. -/
def keptEntry (b : BitVec 1) (x : F .f32) : F .f32 :=
  Scalar.select b (FloatOps.mulf x (FloatOps.ofBits .f32 0x40000000#32)) (FloatOps.ofBits .f32 0x00000000#32)

/-- The entry from the mask word: twice the value where the word is not zero, zero where it is. -/
def keptEntryWord (w : BitVec 32) (x : F .f32) : F .f32 :=
  Scalar.select (IntOp.cmpi .ne w 0#32) (FloatOps.mulf x (FloatOps.ofBits .f32 0x40000000#32)) (FloatOps.ofBits .f32 0x00000000#32)

/-- A bit widened with zeros differs from the zero word exactly when the bit is one. -/
theorem ne_zero_widen : ∀ b : BitVec 1, IntOp.cmpi .ne (b.setWidth 32) 0#32 = b := by decide

/-- So the entry from the widened bit is the entry from the bit. -/
theorem keptEntryWord_widen (b : BitVec 1) (x : F .f32) : keptEntryWord (b.setWidth 32) x = keptEntry b x := by
  unfold keptEntryWord keptEntry
  rw [ne_zero_widen]

/-- The whole flat result: entry `i` from mask bit `i` and value `i`. -/
def kept {s : Shape} (x : s.Idx → F .f32) (k : IVec s 1) : s.Idx → F .f32 :=
  fun i => keptEntry (k i) (x i)

/-- The result on arrays of mask words, in any layout. -/
def keptWords {s : Shape} (x : s.Idx → F .f32) (k : IVec s 32) : s.Idx → F .f32 :=
  fun i => keptEntryWord (k i) (x i)

/-- Lay the values and the mask out in another shape, widen the mask, take the entries there, and lay the result
    out in the first shape again: that is the result taken in the first shape. -/
theorem relaid_keptWords {s t : Shape} (x : s.Idx → F .f32) (k : IVec s 1) (h : s.ShapeCasts t) (h' : t.ShapeCasts s)
    (hw : 1 < 32) :
    shapeCast s (keptWords (shapeCast t x h) (extui 32 (shapeCast t k h) hw)) h' = kept x k := by
  have e : keptWords (shapeCast t x h) (extui 32 (shapeCast t k h) hw) = shapeCast t (kept x k) h := by
    funext j
    show keptEntryWord ((shapeCast t k h j).setWidth 32) (shapeCast t x h j) = _
    rw [keptEntryWord_widen]
    rfl
  rw [e, shapeCast_shapeCast]

end Cert.Dropout

end
-- ==== Proof.Blocks.lean ====
/-
  The kernel's region, block by block. The 250000 x 128 value matrix and mask-word matrix are cut into 25 blocks of
  10000 rows; at grid point t all three windows sit on block row t. The body stores, at every position of its
  block, the entry computed from the value and the mask word at that position, so what point t writes back is block
  t of ONE matrix: the entries taken position by position over the whole value and mask-word matrices. Row r lies in
  block r / 10000, so the 25 blocks cover the output matrix and it ends holding that matrix of entries.
-/
import proofs.«106055_j16638703304888_1_alg».proof.Proof.Gen.KernelIdeal.Frame
import proofs.«106055_j16638703304888_1_alg».proof.Proof.Entry
import Idealize.ShloMosaic.Lib.Pipeline.Value

set_option maxRecDepth 16384

noncomputable section

namespace Cert.KernelIdeal.Blocks

open Idealize.ShloMosaic Idealize.ShloMosaic.TcCoe Idealize.SL.Sem
open Cert.KernelIdeal Cert.KernelIdeal.Gen Cert.Dropout
open Idealize.ShloMosaic.Pipeline (Dat)

variable {F : FTy → Type} [FloatOps F]
variable (m : (ℓ : Loc nD τ sig) → Buf (Elt F) ℓ)

/-- The body loads and stores at the block's origin. -/
theorem origin : (![0, 0] : Fin 2 → Nat) = fun _ => 0 := funext fun a => by fin_cases a <;> rfl

/-- The value the body stores is, position by position, the entry from the loaded mask word and the loaded value. -/
theorem body_eq (x0 : Vec F S10000x128 .f32) (x1 : Vec F S10000x128 .i32) :
    k0_pay1 x0 x1 = keptWords (s := S10000x128) x0 x1 := by
  unfold k0_pay1
  simp only [shapeCast_self]
  rfl

/-- At every grid point the two input windows sit on the output window's block, whose row number is at most 24 and
    whose column number is 0. -/
theorem same_block : ∀ t : Fin cfg0.N,
    win0_0.index t (0 : Fin 2) = win0_2.index t (0 : Fin 2) ∧ win0_0.index t (1 : Fin 2) = win0_2.index t (1 : Fin 2)
    ∧ win0_1.index t (0 : Fin 2) = win0_2.index t (0 : Fin 2) ∧ win0_1.index t (1 : Fin 2) = win0_2.index t (1 : Fin 2)
    ∧ win0_2.index t (0 : Fin 2) ≤ 24 ∧ win0_2.index t (1 : Fin 2) = 0 :=
  (by decide +kernel : ∀ t : Fin grid0.N, _)

/-- Every one of the 25 block rows is some grid point's. -/
theorem block_row_onto : ∀ q : Fin 25, ∃ t : Fin cfg0.N, win0_2.index t = ![q.val, 0] :=
  (by decide +kernel : ∀ q : Fin 25, ∃ t : Fin grid0.N, win0_2.index t = ![q.val, 0])

/-- What point `t` writes back is block `t` of the matrix of entries over the value and mask-word matrices as the
    region finds them. -/
theorem flushed_eq (c : Dev nD) (t : Fin cfg0.N) :
    (dats m 0 c).flushed 2 t
      = ((cfg0.win 2).blk t).view.read (Elt F) (keptWords (s := S250000x128) (V m c main_v0) (V m c main_v2)) := by
  show (cfg0.win 2).cut (grid0.coords t) ((dats m 0 c).after 2 t) = _
  rw [after0_2]
  unfold out0_2
  rw [View.canon_unit_zero origin]
  simp only [View.ld_unit_zero (S := S10000x128) origin]
  rw [body_eq]
  obtain ⟨e0, e1, e2, e3, e4, e5⟩ := same_block t
  funext j
  show keptEntryWord (V m c main_v2 (((cfg0.win 1).blk t).view.emb j)) (V m c main_v0 (((cfg0.win 0).blk t).view.emb j))
    = keptEntryWord (V m c main_v2 (((cfg0.win 2).blk t).view.emb j)) (V m c main_v0 (((cfg0.win 2).blk t).view.emb j))
  have h0 : ((cfg0.win 0).blk t).view.emb j = ((cfg0.win 2).blk t).view.emb j := by
    funext a; apply Fin.ext
    match a with
    | ⟨0, _⟩ => show win0_0.index t (0 : Fin 2) * 10000 + 1 * (j 0).val = win0_2.index t (0 : Fin 2) * 10000 + 1 * (j 0).val; omega
    | ⟨1, _⟩ => show win0_0.index t (1 : Fin 2) * 128 + 1 * (j 1).val = win0_2.index t (1 : Fin 2) * 128 + 1 * (j 1).val; omega
  have h1 : ((cfg0.win 1).blk t).view.emb j = ((cfg0.win 2).blk t).view.emb j := by
    funext a; apply Fin.ext
    match a with
    | ⟨0, _⟩ => show win0_1.index t (0 : Fin 2) * 10000 + 1 * (j 0).val = win0_2.index t (0 : Fin 2) * 10000 + 1 * (j 0).val; omega
    | ⟨1, _⟩ => show win0_1.index t (1 : Fin 2) * 128 + 1 * (j 1).val = win0_2.index t (1 : Fin 2) * 128 + 1 * (j 1).val; omega
  rw [h0, h1]

/-- A position of the output matrix is in point `t`'s block iff each coordinate is in the block's range on its axis. -/
theorem mem_block (t : Fin cfg0.N) (i : S250000x128.Idx) :
    i ∈ ((cfg0.win 2).blk t).view.set
      ↔ ∀ a : Fin 2, win0_2.index t a * S10000x128.size a ≤ (i a).val ∧ (i a).val < win0_2.index t a * S10000x128.size a + S10000x128.size a := by
  show i ∈ ((View.whole main_v3).slice (win0_2.rect t)).set ↔ _
  rw [View.set_slice_whole, Rect.mem_set_unit]
  exact Iff.rfl

/-- Row `r` of the output matrix is in the block of the point whose block row is `r / 10000`. -/
theorem covered (i : S250000x128.Idx) :
    ∃ t : Fin cfg0.N, (cfg0.win 2).flush t = true ∧ i ∈ ((cfg0.win 2).blk t).view.set := by
  have hi0 : (i 0).val < 250000 := (i 0).isLt
  have hi1 : (i 1).val < 128 := (i 1).isLt
  obtain ⟨t, ht⟩ := block_row_onto ⟨(i 0).val / 10000, by omega⟩
  have q0 : win0_2.index t (0 : Fin 2) = (i 0).val / 10000 := congrFun ht 0
  have q1 : win0_2.index t (1 : Fin 2) = 0 := congrFun ht 1
  refine ⟨t, flush0_2 t, ?_⟩
  rw [mem_block]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 128 ≤ (i 1).val ∧ (i 1).val < win0_2.index t (1 : Fin 2) * 128 + 128; omega

/-- The output matrix after the region: the matrix of entries over the value and mask-word matrices. -/
theorem final (c : Dev nD) :
    (dats m 0 c).arrAt 2 cfg0.N = keptWords (s := S250000x128) (V m c main_v0) (V m c main_v2) :=
  (dats m 0 c).arrAt_eq_of_cover 2 _ (fun t _ => flushed_eq m c t) covered

end Cert.KernelIdeal.Blocks

end
-- ==== Proof.HostSides.lean ====
/-
  The program around the region. Before it, the flat values are laid out as the 250000 x 128 value matrix, and the
  flat mask is laid out the same way and each bit widened to a 32-bit word: these are the two matrices the region
  finds. After it, the output matrix is laid out flat again: that flat array is the program's second result.
-/
import proofs.«106055_j16638703304888_1_alg».proof.Proof.Gen.KernelIdeal.Frame
import Idealize.ShloMosaic.Lib.StableHlo.Run
import Idealize.ShloMosaic.Lib.Pipeline.FrameSuffix

noncomputable section

namespace Cert.KernelIdeal.HostSides

open Idealize.ShloMosaic Idealize.ShloMosaic.TcCoe Idealize.SL.Sem Idealize.ShloMosaic.StableHlo
open Cert.KernelIdeal Cert.KernelIdeal.Gen

variable {F : FTy → Type} [FloatOps F]
variable (m : (ℓ : Loc nD τ sig) → Buf (Elt F) ℓ)

/-- The value matrix the region finds: the flat values, 128 to a row. -/
theorem value_matrix (c : Dev nD) :
    (V m c main_v0 : S250000x128.Idx → Elt F .f32)
      = shapeCast S250000x128 (m ((c : Thread nD τ).loc main_arg1)) shapeCasts_S32000000_S250000x128 := by
  show StableHlo.after hostOps0 (fun b => m (c, b)) (Proc.devRef .tc main_v0) = _
  after_results
  rfl

/-- The mask-word matrix the region finds: the flat mask, 128 to a row, each bit widened with zeros. -/
theorem mask_matrix (c : Dev nD) :
    (V m c main_v2 : S250000x128.Idx → Elt F .i32)
      = extui 32 (shapeCast S250000x128 (m ((c : Thread nD τ).loc main_arg2)) shapeCasts_S32000000_S250000x128) natLt_1_32 := by
  show StableHlo.after hostOps0 (fun b => m (c, b)) (Proc.devRef .tc main_v2) = _
  after_results
  rfl

/-- The flat result after the last line: the output matrix as the region leaves it, row after row. -/
theorem flat_result (c : Dev nD) :
    (Pipeline.afterTail₀ cfgs (dats m) 0 (V0 m) [hostOps1] c main_v4 : S32000000.Idx → Elt F .f32)
      = shapeCast S32000000 ((dats m 0 c).arrAt 2 cfg0.N) shapeCasts_S250000x128_S32000000 := by
  unfold Pipeline.afterTail₀
  show StableHlo.after hostOps1 _ (Proc.devRef .tc main_v4) = _
  after_results
  exact congrArg (fun A : S250000x128.Idx → Elt F .f32 => shapeCast S32000000 A shapeCasts_S250000x128_S32000000)
    (Pipeline.withArrays_arr spec0 launch0.win.arr_inj c (V0 m c) (fun w => (dats m 0 c).arrAt w cfg0.N) 2)

end Cert.KernelIdeal.HostSides

end
-- ==== Proof.KernelRun.lean ====
/-
  The kernel program's run with its second result named. The region leaves the matrix of entries over the value and
  mask-word matrices; those are the flat arguments laid out as matrices, the mask widened; the last line lays the
  output out flat. Laying out, taking entries, and laying out back is taking the entries of the flat arguments, so
  the second result is the flat array of kept entries, and the arguments end as they began.
-/
import proofs.«106055_j16638703304888_1_alg».proof.Proof.Blocks
import proofs.«106055_j16638703304888_1_alg».proof.Proof.HostSides

noncomputable section

namespace Cert.KernelIdeal.Result

open Idealize.ShloMosaic Idealize.ShloMosaic.TcCoe Idealize.SL.Sem
open Cert.KernelIdeal Cert.KernelIdeal.Gen Cert.Dropout

variable {F : FTy → Type} [FloatOps F]
variable (m : (ℓ : Loc nD τ sig) → Buf (Elt F) ℓ) (ρ : Dev nD → PrngReg)

/-- The flat array after the last line is the array of kept entries of the flat arguments. -/
theorem flat_kept (c : Dev nD) :
    (Pipeline.afterTail₀ cfgs (dats m) 0 (V0 m) [hostOps1] c main_v4 : S32000000.Idx → Elt F .f32)
      = kept (s := S32000000) (m ((c : Thread nD τ).loc main_arg1)) (m ((c : Thread nD τ).loc main_arg2)) := by
  rw [HostSides.flat_result, Blocks.final, HostSides.value_matrix, HostSides.mask_matrix]
  exact relaid_keptWords _ _ _ _ _

/-- Every weakly fair execution of the kernel program terminates with the first result the index argument, the second
    the flat array of kept entries, and the three arguments unchanged. -/
theorem run : θ_run defs (onTc (τ := τ) (main (F := F))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_v4)
          = kept (s := S32000000) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c =>
    have a0 := ((h c).2 main_arg0 (Pipeline.mem_restRefs_of main_arg0 (by decide) (by decide))).trans (W_main_arg0 m (dats m) c)
    have a1 := ((h c).2 main_arg1 (Pipeline.mem_restRefs_of main_arg1 (by decide) (by decide))).trans (W_main_arg1 m (dats m) c)
    have a2 := ((h c).2 main_arg2 (Pipeline.mem_restRefs_of main_arg2 (by decide) (by decide))).trans (W_main_arg2 m (dats m) c)
    ⟨a0, ((h c).2 main_v4 (Pipeline.mem_restRefs_of main_v4 (by decide) (by decide))).trans (flat_kept m c), a0, a1, a2⟩)
    (run_main m ρ)

end Cert.KernelIdeal.Result

end
-- ==== Proof.RefSide.lean ====
/-
  The reference, read one entry at a time: it doubles every value, and selects by the mask bit between the doubled
  value and zero. Entry by entry that is the kept entry of the mask bit and the value.
-/
import proofs.«106055_j16638703304888_1_alg».proof.Proof.Gen.ReferenceIdeal.Read
import proofs.«106055_j16638703304888_1_alg».proof.Proof.Entry

noncomputable section

namespace Cert.ReferenceIdeal.RefValue

open Idealize.ShloMosaic Idealize.ShloMosaic.TcCoe Idealize.SL.Sem
open Cert.ReferenceIdeal Cert.ReferenceIdeal.Gen Cert.Dropout

variable {F : FTy → Type} [FloatOps F]

/-- The reference's result is the flat array of kept entries. -/
theorem result_is_kept (x : (⟨S32000000, .f32⟩ : BufTy).Contents (Elt F)) (k : (⟨S32000000, .i1⟩ : BufTy).Contents (Elt F)) :
    Read.val_main_v2 (F := F) x k = kept (s := S32000000) x k := by
  funext i
  rw [Read.val_main_v2_apply, Read.val_main_v1_apply, Read.val_main_v0_apply, Read.val_main_cst_apply,
    Read.val_main_call0_v0_apply, Read.val_main_cst_0_apply]
  rfl

end Cert.ReferenceIdeal.RefValue

end
-- ==== Proof.lean ====
/-
  Sparse dropout at keep probability 1/2 over 32000000 entries: the result is the index array passed through, and
  the flat array whose entry i is twice value i where mask bit i is set and zero elsewhere.

  The reference computes exactly that, entry by entry (Proof/RefSide.lean). The kernel program lays the values and
  the mask out as 250000 x 128 matrices, widens each mask bit to a 32-bit word, runs a region of 25 blocks of 10000
  rows whose body selects, by the word tested against zero, between twice the value and zero, and lays the output
  matrix out flat. Each block written back is a block of one matrix of entries and the blocks cover it
  (Proof/Blocks.lean); the matrices the region finds and the flat array after it are read off the lines around it
  (Proof/HostSides.lean); the word tested against zero is the mask bit, and a pointwise function commutes with the
  two changes of layout, which undo each other (Proof/Entry.lean). So both programs end with the same flat array
  (Proof/KernelRun.lean and the statement below). The two constants, 2 and 0, are the same words on both sides and
  are never evaluated, and nothing here needs the inputs to be finite: the equality holds on all extended reals.
  No operation was rewritten by the idealization, so that conjunct is trivial. The three frames are the generated
  frame runs and the reference's generated run.
-/
import proofs.«106055_j16638703304888_1_alg».proof.Defs
import proofs.«106055_j16638703304888_1_alg».proof.Proof.Gen.Kernel
import proofs.«106055_j16638703304888_1_alg».proof.Proof.Gen.Kernel.Skeleton
import proofs.«106055_j16638703304888_1_alg».proof.Proof.Gen.Kernel.Launch
import proofs.«106055_j16638703304888_1_alg».proof.Proof.Gen.Kernel.Points
import proofs.«106055_j16638703304888_1_alg».proof.Proof.Gen.Kernel.Frame
import proofs.«106055_j16638703304888_1_alg».proof.Proof.Gen.KernelIdeal
import proofs.«106055_j16638703304888_1_alg».proof.Proof.Gen.KernelIdeal.Skeleton
import proofs.«106055_j16638703304888_1_alg».proof.Proof.Gen.KernelIdeal.Launch
import proofs.«106055_j16638703304888_1_alg».proof.Proof.Gen.KernelIdeal.Points
import proofs.«106055_j16638703304888_1_alg».proof.Proof.Gen.KernelIdeal.Frame
import proofs.«106055_j16638703304888_1_alg».proof.Proof.Gen.ReferenceIdeal
import proofs.«106055_j16638703304888_1_alg».proof.Proof.Gen.ReferenceIdeal.Run
import proofs.«106055_j16638703304888_1_alg».proof.Proof.Gen.ReferenceIdeal.Read
import proofs.«106055_j16638703304888_1_alg».proof.Proof.Gen.Pre_finite_inputs
import proofs.«106055_j16638703304888_1_alg».proof.Proof.KernelRun
import proofs.«106055_j16638703304888_1_alg».proof.Proof.RefSide
import Idealize.ShloMosaic.Adequacy
import Idealize.ShloMosaic.Init

noncomputable section

namespace Cert.Proof

open Idealize.ShloMosaic Idealize.SL.Sem

/-- The kernel program as printed runs and keeps its arguments. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and keeps its arguments: its run with the results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The idealization rewrote nothing. -/
theorem preserves : Cert.preserves_Kernel_KernelIdeal := trivial

/-- From memories agreeing on the arguments both programs end with the index array as launched and with the flat
    array of kept entries of the values and the mask. -/
theorem algebraic : Cert.algebraic_KernelIdeal_ReferenceIdeal := by
  intro m ρ m' ρ' _ hagree
  refine ⟨_, _, Cert.KernelIdeal.Result.run (F := Ideal) m ρ, ?_⟩
  refine (θ_run Cert.ReferenceIdeal.defs _ _).mono (fun _ h c => ⟨?_, ?_, (h c).2.2⟩)
    (Cert.ReferenceIdeal.Value.run (F := Ideal) m' ρ')
  · exact (h c).1.trans (hagree c).1
  · rw [(h c).2.1, Cert.ReferenceIdeal.Read.val_main_v2_eq, Cert.ReferenceIdeal.RefValue.result_is_kept,
      (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
